-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S64 .f32) (main_arg7 : FVec F S64x2 .f32) (main_arg8 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg7
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x2 .f32) (main_arg8 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S20000x64 : Shape := ⟨2, ![20000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 107
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x2, .f32⟩
  | .hbm, ⟨8, _⟩ => ⟨S2, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x64, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S_, .f32⟩
  | .hbm, ⟨90, _⟩ => ⟨S512x64, .f32⟩
  | .hbm, ⟨91, _⟩ => ⟨S100000x1, .i32⟩
  | .hbm, ⟨92, _⟩ => ⟨S512x64, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S512, .f32⟩
  | .hbm, ⟨97, _⟩ => ⟨S100000x1, .i32⟩
  | .hbm, ⟨98, _⟩ => ⟨S512, .f32⟩
  | .hbm, ⟨99, _⟩ => ⟨S_, .f32⟩
  | .hbm, ⟨100, _⟩ => ⟨S512, .f32⟩
  | .hbm, ⟨101, _⟩ => ⟨S512, .f32⟩
  | .hbm, ⟨102, _⟩ => ⟨S512x1, .f32⟩
  | .hbm, ⟨103, _⟩ => ⟨S512x64, .f32⟩
  | .hbm, ⟨104, _⟩ => ⟨S512x64, .f32⟩
  | .hbm, ⟨105, _⟩ => ⟨S1x2, .f32⟩
  | .hbm, ⟨106, _⟩ => ⟨S512x2, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S64x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S1x64, .f32⟩
  | .local _ .vmem, ⟨14, _⟩ => ⟨S20000x64, .f32⟩
  | .local _ .vmem, ⟨15, _⟩ => ⟨S20000x64, .f32⟩
  | .local _ .vmem, ⟨16, _⟩ => ⟨S512x64, .f32⟩
  | .local _ .vmem, ⟨17, _⟩ => ⟨S64x2, .f32⟩
  | .local _ .vmem, ⟨18, _⟩ => ⟨S1x2, .f32⟩
  | .local _ .vmem, ⟨19, _⟩ => ⟨S512x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S2_S1x2 : S2.ShapeCasts S1x2
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x64_S64x64_S20000x64_1_0_0_1_n_n_wf : DotDims.WF S20000x64 S64x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S100000x64.size a
  hwx2_2 : ∀ i : grid2.Coords, EltTy.bits .f32 = 32 ∨ (Rect.block (s := S100000x64) S20000x64.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x64.size a ≤ S512x64.size a
  hwx3_0 : ∀ i : grid3.Coords, EltTy.bits .f32 = 32 ∨ (Rect.block (s := S512x64) S512x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x2.size a ≤ S512x2.size a
  hwx3_3 : ∀ i : grid3.Coords, EltTy.bits .f32 = 32 ∨ (Rect.block (s := S512x2) S512x2.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S512x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S512x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x2, .f32⟩
  | 8 => ⟨S2, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x64, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x1, .f32⟩
  | 63 => ⟨S1700000x64, .f32⟩
  | 64 => ⟨S1700000x64, .f32⟩
  | 65 => ⟨S_, .f32⟩
  | 66 => ⟨S100000x64, .f32⟩
  | 67 => ⟨S1700000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .i32⟩
  | 77 => ⟨S1700000, .i32⟩
  | 78 => ⟨S1700000, .i1⟩
  | 79 => ⟨S_, .i32⟩
  | 80 => ⟨S1700000, .i32⟩
  | 81 => ⟨S1700000, .i32⟩
  | 82 => ⟨S1700000, .i32⟩
  | 83 => ⟨S1700000x1, .i32⟩
  | 84 => ⟨S1700000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x1, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S512x64, .f32⟩
  | 119 => ⟨S100000x1, .i32⟩
  | 120 => ⟨S512x64, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x64, .f32⟩

abbrev hbmTy0_1 (i : Nat) : BufTy := match i % 128 with
  | 0 => ⟨S512, .f32⟩
  | 1 => ⟨S512, .f32⟩
  | 2 => ⟨S512x1, .f32⟩
  | 3 => ⟨S512x64, .f32⟩
  | 4 => ⟨S512x64, .f32⟩
  | 5 => ⟨S512x2, .f32⟩
  | 6 => ⟨S1x2, .f32⟩
  | 7 => ⟨S512x2, .f32⟩
  | 8 => ⟨S512x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_17 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_18 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_20 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x2_S512x2_1_0_0_1_n_n_wf : DotDims.WF S512x64 S64x2 S512x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x2_S512x2_1_0_0_1_n_n : DotDims S512x64 S64x2 S512x2 where
  lhsContracting := [1]
  rhsContracting := [0]
  lhsNonContracting := [0]
  rhsNonContracting := [1]
  lhsBatch := []
  rhsBatch := []
  wf := dot_S512x64_S64x2_S512x2_1_0_0_1_n_n_wf

class Facts : Prop extends Facts₀ where

variable [Facts]
-- ==== Proof.Gcn.lean ====
/-
  The network both programs compute, written once over the host operations: a two-layer graph convolution with
  symmetric normalisation, a mean pool over graphs and a linear head.

  The edge table e : i32[2, 1600000] gives sources (row 0) and destinations (row 1); every node also has a self loop, so
  there are 1700000 messages. With deg(v) the number of messages arriving at v and dinv(v) = deg(v)^(-1/2) where deg(v) > 0
  (0 elsewhere), message j carries the weight norm(j) = dinv(src j) * dinv(dst j). A layer sends h to
      aggregate(h)(v, :) = sum over messages j with dst j = v of h(src j, :) * norm(j),
  adds a bias row and clamps at zero. The network is
      out = mean-pool_b( relu( aggregate( relu( aggregate(x W1) + b1 ) W2 ) + b2 ) ) Wfc + bfc,
  where the pool divides each graph's sum of node rows by max(count, 1).

  Everything here is a definition over whole arrays; no index is read. The index tables are carried as arguments of
  `normOf` and `aggregate` so that a program which computes them once and one which computes them again use the same terms.
-/
import proofs.«134191_j78786880077968_1_alg».proof.Proof.Gen.ReferenceIdeal

noncomputable section

namespace Cert.Gcn

open Idealize.ShloMosaic Cert.ReferenceIdeal Cert.ReferenceIdeal.Gen

variable {F : FTy → Type} [FloatOps F]

/-- The sources of the messages: row 0 of the edge table, then the nodes 0 … 99999 (the self loops). -/
def srcOf (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations of the messages: row 1 of the edge table, then the nodes 0 … 99999. -/
def dstOf (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A table of node numbers as a one-column table for a gather: a negative entry counts from the end (it is moved up by
    the node count). -/
def wrapped (j : (⟨S1700000, .i32⟩ : BufTy).Contents (Elt F)) : (⟨S1700000x1, .i32⟩ : BufTy).Contents (Elt F) :=
  broadcastInDim S1700000x1 ![0] bcast_S1700000_S1700000x1_0 (select (cmpi .slt j (broadcastInDim S1700000 ![] bcast_S_S1700000 (constantI S_ 32 0#32))) (addi j (broadcastInDim S1700000 ![] bcast_S_S1700000 (constantI S_ 32 100000#32))) j)

/-- A table of node numbers as a one-column table for a scatter. -/
def column (j : (⟨S1700000, .i32⟩ : BufTy).Contents (Elt F)) : (⟨S1700000x1, .i32⟩ : BufTy).Contents (Elt F) :=
  broadcastInDim S1700000x1 ![0] bcast_S1700000_S1700000x1_0 j

/-- deg(v): the number of messages arriving at node v. -/
def degree (d : (⟨S1700000, .i32⟩ : BufTy).Contents (Elt F)) : (⟨S100000, .f32⟩ : BufTy).Contents (Elt F) :=
  Host.scatterAdd (F := F) scatter_S100000_S1700000x1_S1700000_n_0_0_1 (broadcastInDim S100000 ![] bcast_S_S100000 (constant (F := F) S_ .f32 0x00000000#32)) (column (F := F) d) (broadcastInDim S1700000 ![] bcast_S_S1700000 (constant (F := F) S_ .f32 0x3F800000#32))

/-- dinv(v) = max(deg v, 1)^(-1/2) where deg v > 0, and 0 elsewhere. -/
def dinv (d : (⟨S1700000, .i32⟩ : BufTy).Contents (Elt F)) : (⟨S100000, .f32⟩ : BufTy).Contents (Elt F) :=
  select (cmpf (F := F) .ogt (degree (F := F) d) (broadcastInDim S100000 ![] bcast_S_S100000 (constant (F := F) S_ .f32 0x00000000#32))) (Host.rsqrt (F := F) (maximumf (degree (F := F) d) (broadcastInDim S100000 ![] bcast_S_S100000 (constant (F := F) S_ .f32 0x3F800000#32)))) (broadcastInDim S100000 ![] bcast_S_S100000 (id (constant (F := F) S_ .f32 0x00000000#32)))

/-- norm(j) = dinv(src j) * dinv(dst j), one weight per message. -/
def normOf (s d : (⟨S1700000, .i32⟩ : BufTy).Contents (Elt F)) : (⟨S1700000, .f32⟩ : BufTy).Contents (Elt F) :=
  mulf (Host.gather gather_S100000_S1700000x1_S1700000_n_0_n_n_0_1_1 (dinv (F := F) d) (wrapped (F := F) s)) (Host.gather gather_S100000_S1700000x1_S1700000_n_0_n_n_0_1_1 (dinv (F := F) d) (wrapped (F := F) d))

/-- aggregate(h)(v, :) = sum over the messages j arriving at v of h(src j, :) * n(j). -/
def aggregate (s d : (⟨S1700000, .i32⟩ : BufTy).Contents (Elt F)) (n : (⟨S1700000, .f32⟩ : BufTy).Contents (Elt F)) (h : (⟨S100000x64, .f32⟩ : BufTy).Contents (Elt F)) : (⟨S100000x64, .f32⟩ : BufTy).Contents (Elt F) :=
  Host.scatterAdd (F := F) scatter_S100000x64_S1700000x1_S1700000x64_1_0_0_1 (broadcastInDim S100000x64 ![] bcast_S_S100000x64 (constant (F := F) S_ .f32 0x00000000#32)) (column (F := F) d) (mulf (Host.gather gather_S100000x64_S1700000x1_S1700000x64_1_0_n_n_0_1_164 h (wrapped (F := F) s)) (broadcastInDim S1700000x64 ![0, 1] bcast_S1700000x1_S1700000x64_0_1 (broadcastInDim S1700000x1 ![0] bcast_S1700000_S1700000x1_0 n)))

/-- A bias kept as a one-row matrix, added to every row. -/
def biased (a : (⟨S100000x64, .f32⟩ : BufTy).Contents (Elt F)) (B : (⟨S1x64, .f32⟩ : BufTy).Contents (Elt F)) : (⟨S100000x64, .f32⟩ : BufTy).Contents (Elt F) :=
  addf a (broadcastInDim S100000x64 ![0, 1] bcast_S1x64_S100000x64_0_1 B)

/-- Clamping at zero from below. -/
def rectify (z : (⟨S100000x64, .f32⟩ : BufTy).Contents (Elt F)) : (⟨S100000x64, .f32⟩ : BufTy).Contents (Elt F) :=
  maximumf z (broadcastInDim S100000x64 ![] bcast_S_S100000x64 (constant (F := F) S_ .f32 0x00000000#32))

/-- A vector of 64 entries as a one-row matrix. -/
def rowOf64 (b : (⟨S64, .f32⟩ : BufTy).Contents (Elt F)) : (⟨S1x64, .f32⟩ : BufTy).Contents (Elt F) :=
  broadcastInDim S1x64 ![1] bcast_S64_S1x64_1 b

/-- The node features times a 64 x 64 weight matrix. -/
def dense (x : (⟨S100000x64, .f32⟩ : BufTy).Contents (Elt F)) (w : (⟨S64x64, .f32⟩ : BufTy).Contents (Elt F)) : (⟨S100000x64, .f32⟩ : BufTy).Contents (Elt F) :=
  Host.dotGeneral (F := F) dot_S100000x64_S64x64_S100000x64_1_0_0_1_n_n none x w

/-- The mean of the node rows of each of the 512 graphs; a graph without nodes divides by 1. -/
def pooled (b : (⟨S100000, .i32⟩ : BufTy).Contents (Elt F)) (h : (⟨S100000x64, .f32⟩ : BufTy).Contents (Elt F)) : (⟨S512x64, .f32⟩ : BufTy).Contents (Elt F) :=
  Host.divf (F := F) (Host.scatterAdd (F := F) scatter_S512x64_S100000x1_S100000x64_1_0_0_1 (broadcastInDim S512x64 ![] bcast_S_S512x64 (constant (F := F) S_ .f32 0x00000000#32)) (broadcastInDim S100000x1 ![0] bcast_S100000_S100000x1_0 b) h) (broadcastInDim S512x64 ![0, 1] bcast_S512x1_S512x64_0_1 (broadcastInDim S512x1 ![0] bcast_S512_S512x1_0 (maximumf (Host.scatterAdd (F := F) scatter_S512_S100000x1_S100000_n_0_0_1 (broadcastInDim S512 ![] bcast_S_S512 (constant (F := F) S_ .f32 0x00000000#32)) (broadcastInDim S100000x1 ![0] bcast_S100000_S100000x1_0 b) (broadcastInDim S100000 ![] bcast_S_S100000 (constant (F := F) S_ .f32 0x3F800000#32))) (broadcastInDim S512 ![] bcast_S_S512 (constant (F := F) S_ .f32 0x3F800000#32)))))

/-- A vector of 2 entries as a one-row matrix. -/
def rowOf2 (b : (⟨S2, .f32⟩ : BufTy).Contents (Elt F)) : (⟨S1x2, .f32⟩ : BufTy).Contents (Elt F) :=
  broadcastInDim S1x2 ![1] bcast_S2_S1x2_1 b

/-- The linear head: the pooled features times a 64 x 2 matrix, plus a bias row on every row. -/
def head (p : (⟨S512x64, .f32⟩ : BufTy).Contents (Elt F)) (w : (⟨S64x2, .f32⟩ : BufTy).Contents (Elt F)) (B : (⟨S1x2, .f32⟩ : BufTy).Contents (Elt F)) : (⟨S512x2, .f32⟩ : BufTy).Contents (Elt F) :=
  addf (Host.dotGeneral (F := F) dot_S512x64_S64x2_S512x2_1_0_0_1_n_n none p w) (broadcastInDim S512x2 ![0, 1] bcast_S1x2_S512x2_0_1 B)

/-- The first layer before its bias: the aggregated x W1. -/
def agg1 (x0 : (⟨S100000x64, .f32⟩ : BufTy).Contents (Elt F)) (x1 : (⟨S2x1600000, .i32⟩ : BufTy).Contents (Elt F)) (x3 : (⟨S64x64, .f32⟩ : BufTy).Contents (Elt F)) : (⟨S100000x64, .f32⟩ : BufTy).Contents (Elt F) :=
  aggregate (F := F) (srcOf (F := F) x1) (dstOf (F := F) x1) (normOf (F := F) (srcOf (F := F) x1) (dstOf (F := F) x1)) (dense (F := F) x0 x3)

/-- The second layer before its bias: the aggregated relu(agg1 + b1) W2. -/
def agg2 (x0 : (⟨S100000x64, .f32⟩ : BufTy).Contents (Elt F)) (x1 : (⟨S2x1600000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) : (⟨S100000x64, .f32⟩ : BufTy).Contents (Elt F) :=
  aggregate (F := F) (srcOf (F := F) x1) (dstOf (F := F) x1) (normOf (F := F) (srcOf (F := F) x1) (dstOf (F := F) x1)) (dense (F := F) (rectify (F := F) (biased (F := F) (agg1 (F := F) x0 x1 x3) (rowOf64 (F := F) x4))) x5)

/-- The whole network. -/
def net (x0 : (⟨S100000x64, .f32⟩ : BufTy).Contents (Elt F)) (x1 : (⟨S2x1600000, .i32⟩ : BufTy).Contents (Elt F)) (x2 : (⟨S100000, .i32⟩ : BufTy).Contents (Elt F)) (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F)) (x7 : (⟨S64x2, .f32⟩ : BufTy).Contents (Elt F)) (x8 : (⟨S2, .f32⟩ : BufTy).Contents (Elt F)) : (⟨S512x2, .f32⟩ : BufTy).Contents (Elt F) :=
  head (F := F) (pooled (F := F) x2 (rectify (F := F) (biased (F := F) (agg2 (F := F) x0 x1 x3 x4 x5) (rowOf64 (F := F) x6)))) x7 (rowOf2 (F := F) x8)

end Cert.Gcn

end
-- ==== Proof.RefNet.lean ====
/-
  The host program's result is the network of its arguments: its composed term is, subterm by subterm, the definitions of
  the network's pieces unfolded (it builds the message tables and the weights a second time for the second layer, from
  the same edge table, which gives the same terms).
-/
import proofs.«134191_j78786880077968_1_alg».proof.Proof.RunRef
import proofs.«134191_j78786880077968_1_alg».proof.Proof.Gcn

set_option maxRecDepth 16384

noncomputable section

namespace Cert.ReferenceIdeal.RefNet

open Cert.ReferenceIdeal Cert.ReferenceIdeal.Gen Idealize.ShloMosaic Idealize.ShloMosaic.TcCoe Idealize.SL.Sem

variable {F : FTy → Type} [FloatOps F]

/-- The composed term of the host program's result is the network of the argument arrays. -/
theorem res_eq (m : (ℓ : Loc nD τ sig) → Buf (Elt F) ℓ) (c : Dev nD) :
    Cert.ReferenceIdeal.ValueP.res_main_v98 (F := F) m c
      = Cert.Gcn.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v98
  rfl

end Cert.ReferenceIdeal.RefNet

end
-- ==== Proof.KernelRun.lean ====
/-
  The idealized kernel's whole run, read at its result.

  The program is four pipelined regions among stretches of host operations. Its run leaves every buffer that outlives a
  region at the contents the last segment boundary names: the fold of the host stretches and of the regions' write-backs
  from the launch memory. Here that run is stated with the result buffer kept: after every weakly fair execution the
  result array holds the fold's value at the result buffer, and the nine argument arrays are as launched.
-/
import proofs.«134191_j78786880077968_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the value the last
    segment boundary gives the result buffer, and every argument array ends as launched. -/
theorem run_result : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Hosts.lean ====
/-
  The kernel program's host operations between its regions, read as the network's pieces.

  Before the first region the program builds the message tables and the weights from the edge table; between the regions
  it gathers the dense result along the sources, scales it by the weights and adds it up at the destinations, and casts a
  bias vector to one row; before the last region it pools. Each statement is over ANY contents `V` of the buffers when the
  stretch starts, so it applies at every segment boundary; a buffer no operation of a stretch writes keeps its contents.
  The operations are the same operations, in the same order, as the host program's, so each equation closes by
  unfolding the definitions of the pieces.
-/
import proofs.«134191_j78786880077968_1_alg».proof.Proof.Gen.KernelIdeal.Launch
import proofs.«134191_j78786880077968_1_alg».proof.Proof.Gcn
import Idealize.ShloMosaic.Lib.StableHlo.Run

set_option maxRecDepth 16384
-- a stretch of seventeen to forty operations is read one operation and one reference at a time
set_option maxHeartbeats 1000000

noncomputable section

namespace Cert.KernelIdeal.Hosts

open Cert.KernelIdeal Cert.KernelIdeal.Gen Idealize.ShloMosaic Idealize.ShloMosaic.TcCoe Idealize.ShloMosaic.StableHlo Idealize.SL.Sem

variable {F : FTy → Type} [FloatOps F]

/-! ## Before the first region: the message tables and weights -/

/-- The sources table after the three opening stretches. -/
theorem pre_src (V : Valuation τ sig (Elt F)) (e : (⟨Cert.ReferenceIdeal.S2x1600000, .i32⟩ : BufTy).Contents (Elt F)) (he : V (Proc.devRef .tc main_arg1) = e) :
    after (hostOps0_2 (F := F)) (after hostOps0_1 (after hostOps0 V)) (Proc.devRef .tc main_v3) = Cert.Gcn.srcOf (F := F) e := by
  subst he
  after_results
  rfl

/-- The destinations table after the three opening stretches. -/
theorem pre_dst (V : Valuation τ sig (Elt F)) (e : (⟨Cert.ReferenceIdeal.S2x1600000, .i32⟩ : BufTy).Contents (Elt F)) (he : V (Proc.devRef .tc main_arg1) = e) :
    after (hostOps0_2 (F := F)) (after hostOps0_1 (after hostOps0 V)) (Proc.devRef .tc main_v6) = Cert.Gcn.dstOf (F := F) e := by
  subst he
  after_results
  rfl

set_option maxHeartbeats 4000000 in
/-- The message weights after the three opening stretches. -/
theorem pre_norm (V : Valuation τ sig (Elt F)) (e : (⟨Cert.ReferenceIdeal.S2x1600000, .i32⟩ : BufTy).Contents (Elt F)) (he : V (Proc.devRef .tc main_arg1) = e) :
    after (hostOps0_2 (F := F)) (after hostOps0_1 (after hostOps0 V)) (Proc.devRef .tc main_v31) = Cert.Gcn.normOf (F := F) (Cert.Gcn.srcOf (F := F) e) (Cert.Gcn.dstOf (F := F) e) := by
  subst he
  after_results_simp
  unfold Cert.Gcn.normOf Cert.Gcn.dinv Cert.Gcn.degree Cert.Gcn.column Cert.Gcn.wrapped Cert.Gcn.srcOf Cert.Gcn.dstOf
  rfl

theorem pre_keep_main_arg0 (V : Valuation τ sig (Elt F)) : after (hostOps0_2 (F := F)) (after hostOps0_1 (after hostOps0 V)) (Proc.devRef .tc main_arg0) = V (Proc.devRef .tc main_arg0) := by
  after_results
theorem pre_keep_main_arg2 (V : Valuation τ sig (Elt F)) : after (hostOps0_2 (F := F)) (after hostOps0_1 (after hostOps0 V)) (Proc.devRef .tc main_arg2) = V (Proc.devRef .tc main_arg2) := by
  after_results
theorem pre_keep_main_arg3 (V : Valuation τ sig (Elt F)) : after (hostOps0_2 (F := F)) (after hostOps0_1 (after hostOps0 V)) (Proc.devRef .tc main_arg3) = V (Proc.devRef .tc main_arg3) := by
  after_results
theorem pre_keep_main_arg4 (V : Valuation τ sig (Elt F)) : after (hostOps0_2 (F := F)) (after hostOps0_1 (after hostOps0 V)) (Proc.devRef .tc main_arg4) = V (Proc.devRef .tc main_arg4) := by
  after_results
theorem pre_keep_main_arg5 (V : Valuation τ sig (Elt F)) : after (hostOps0_2 (F := F)) (after hostOps0_1 (after hostOps0 V)) (Proc.devRef .tc main_arg5) = V (Proc.devRef .tc main_arg5) := by
  after_results
theorem pre_keep_main_arg6 (V : Valuation τ sig (Elt F)) : after (hostOps0_2 (F := F)) (after hostOps0_1 (after hostOps0 V)) (Proc.devRef .tc main_arg6) = V (Proc.devRef .tc main_arg6) := by
  after_results
theorem pre_keep_main_arg7 (V : Valuation τ sig (Elt F)) : after (hostOps0_2 (F := F)) (after hostOps0_1 (after hostOps0 V)) (Proc.devRef .tc main_arg7) = V (Proc.devRef .tc main_arg7) := by
  after_results
theorem pre_keep_main_arg8 (V : Valuation τ sig (Elt F)) : after (hostOps0_2 (F := F)) (after hostOps0_1 (after hostOps0 V)) (Proc.devRef .tc main_arg8) = V (Proc.devRef .tc main_arg8) := by
  after_results

/-! ## Between the first and the second region: the first aggregation and the first bias row -/

set_option maxHeartbeats 2000000 in
/-- The aggregated dense result. -/
theorem mid1_agg (V : Valuation τ sig (Elt F)) (s d : (⟨Cert.ReferenceIdeal.S1700000, .i32⟩ : BufTy).Contents (Elt F)) (n : (⟨Cert.ReferenceIdeal.S1700000, .f32⟩ : BufTy).Contents (Elt F)) (h : (⟨Cert.ReferenceIdeal.S100000x64, .f32⟩ : BufTy).Contents (Elt F))
    (hs : V (Proc.devRef .tc main_v3) = s) (hd : V (Proc.devRef .tc main_v6) = d) (hn : V (Proc.devRef .tc main_v31) = n) (hh : V (Proc.devRef .tc main_v32) = h) :
    after (hostOps1 (F := F)) V (Proc.devRef .tc main_v45) = Cert.Gcn.aggregate (F := F) s d n h := by
  subst hs hd hn hh
  after_results
  unfold Cert.Gcn.aggregate Cert.Gcn.column Cert.Gcn.wrapped
  rfl

/-- The first bias vector as one row. -/
theorem mid1_bias (V : Valuation τ sig (Elt F)) (b : (⟨Cert.ReferenceIdeal.S64, .f32⟩ : BufTy).Contents (Elt F)) (hb : V (Proc.devRef .tc main_arg4) = b) :
    after (hostOps1 (F := F)) V (Proc.devRef .tc main_v46) = shapeCast S1x64 b shapeCasts_S64_S1x64 := by
  subst hb
  after_results
  rfl

theorem mid1_keep_main_v3 (V : Valuation τ sig (Elt F)) : after (hostOps1 (F := F)) V (Proc.devRef .tc main_v3) = V (Proc.devRef .tc main_v3) := by
  after_results
theorem mid1_keep_main_v6 (V : Valuation τ sig (Elt F)) : after (hostOps1 (F := F)) V (Proc.devRef .tc main_v6) = V (Proc.devRef .tc main_v6) := by
  after_results
theorem mid1_keep_main_v31 (V : Valuation τ sig (Elt F)) : after (hostOps1 (F := F)) V (Proc.devRef .tc main_v31) = V (Proc.devRef .tc main_v31) := by
  after_results
theorem mid1_keep_main_arg2 (V : Valuation τ sig (Elt F)) : after (hostOps1 (F := F)) V (Proc.devRef .tc main_arg2) = V (Proc.devRef .tc main_arg2) := by
  after_results
theorem mid1_keep_main_arg5 (V : Valuation τ sig (Elt F)) : after (hostOps1 (F := F)) V (Proc.devRef .tc main_arg5) = V (Proc.devRef .tc main_arg5) := by
  after_results
theorem mid1_keep_main_arg6 (V : Valuation τ sig (Elt F)) : after (hostOps1 (F := F)) V (Proc.devRef .tc main_arg6) = V (Proc.devRef .tc main_arg6) := by
  after_results
theorem mid1_keep_main_arg7 (V : Valuation τ sig (Elt F)) : after (hostOps1 (F := F)) V (Proc.devRef .tc main_arg7) = V (Proc.devRef .tc main_arg7) := by
  after_results
theorem mid1_keep_main_arg8 (V : Valuation τ sig (Elt F)) : after (hostOps1 (F := F)) V (Proc.devRef .tc main_arg8) = V (Proc.devRef .tc main_arg8) := by
  after_results

/-! ## Between the second and the third region: the second aggregation and the second bias row -/

set_option maxHeartbeats 2000000 in
/-- The aggregated dense result. -/
theorem mid2_agg (V : Valuation τ sig (Elt F)) (s d : (⟨Cert.ReferenceIdeal.S1700000, .i32⟩ : BufTy).Contents (Elt F)) (n : (⟨Cert.ReferenceIdeal.S1700000, .f32⟩ : BufTy).Contents (Elt F)) (h : (⟨Cert.ReferenceIdeal.S100000x64, .f32⟩ : BufTy).Contents (Elt F))
    (hs : V (Proc.devRef .tc main_v3) = s) (hd : V (Proc.devRef .tc main_v6) = d) (hn : V (Proc.devRef .tc main_v31) = n) (hh : V (Proc.devRef .tc main_v47) = h) :
    after (hostOps2 (F := F)) V (Proc.devRef .tc main_v60) = Cert.Gcn.aggregate (F := F) s d n h := by
  subst hs hd hn hh
  after_results
  unfold Cert.Gcn.aggregate Cert.Gcn.column Cert.Gcn.wrapped
  rfl

/-- The second bias vector as one row. -/
theorem mid2_bias (V : Valuation τ sig (Elt F)) (b : (⟨Cert.ReferenceIdeal.S64, .f32⟩ : BufTy).Contents (Elt F)) (hb : V (Proc.devRef .tc main_arg6) = b) :
    after (hostOps2 (F := F)) V (Proc.devRef .tc main_v61) = shapeCast S1x64 b shapeCasts_S64_S1x64 := by
  subst hb
  after_results
  rfl

theorem mid2_keep_main_arg2 (V : Valuation τ sig (Elt F)) : after (hostOps2 (F := F)) V (Proc.devRef .tc main_arg2) = V (Proc.devRef .tc main_arg2) := by
  after_results
theorem mid2_keep_main_arg7 (V : Valuation τ sig (Elt F)) : after (hostOps2 (F := F)) V (Proc.devRef .tc main_arg7) = V (Proc.devRef .tc main_arg7) := by
  after_results
theorem mid2_keep_main_arg8 (V : Valuation τ sig (Elt F)) : after (hostOps2 (F := F)) V (Proc.devRef .tc main_arg8) = V (Proc.devRef .tc main_arg8) := by
  after_results

/-! ## Between the third and the fourth region: the pool and the head's bias row -/

/-- The pooled features. -/
theorem mid3_pool (V : Valuation τ sig (Elt F)) (g : (⟨Cert.ReferenceIdeal.S100000, .i32⟩ : BufTy).Contents (Elt F)) (h : (⟨Cert.ReferenceIdeal.S100000x64, .f32⟩ : BufTy).Contents (Elt F))
    (hg : V (Proc.devRef .tc main_arg2) = g) (hh : V (Proc.devRef .tc main_v62) = h) :
    after (hostOps3 (F := F)) V (Proc.devRef .tc main_v74) = Cert.Gcn.pooled (F := F) g h := by
  subst hg hh
  after_results
  unfold Cert.Gcn.pooled
  rfl

/-- The head's bias vector as one row. -/
theorem mid3_bias (V : Valuation τ sig (Elt F)) (b : (⟨Cert.ReferenceIdeal.S2, .f32⟩ : BufTy).Contents (Elt F)) (hb : V (Proc.devRef .tc main_arg8) = b) :
    after (hostOps3 (F := F)) V (Proc.devRef .tc main_v75) = shapeCast S1x2 b shapeCasts_S2_S1x2 := by
  subst hb
  after_results
  rfl

theorem mid3_keep_main_arg7 (V : Valuation τ sig (Elt F)) : after (hostOps3 (F := F)) V (Proc.devRef .tc main_arg7) = V (Proc.devRef .tc main_arg7) := by
  after_results

end Cert.KernelIdeal.Hosts

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.KernelAt.lean ====
/-
  The four kernel bodies read at an entry of the block they store, over the extended reals with the exact operations
  (narrowing a float format is no change there).

  * the first body, a product of a [20000, 64] block of node features with a 64 x 64 matrix, at (r, q): the sum over k of
    x(r, k) * w(k, q);
  * the second, the same product after a bias row is added to the block and the sum clamped at zero: the sum over k of
    max(x(r, k) + B(0, k), 0) * w(k, q);
  * the third, bias and clamp only: max(x(r, q) + B(0, q), 0);
  * the fourth, the head on the whole [512, 64] pooled matrix: the sum over k of p(r, k) * w(k, q), plus B(0, q).
  The zero of the clamp stays the printed word: it is the same word in the host program, so it is never evaluated.
-/
import proofs.«134191_j78786880077968_1_alg».proof.Proof.Gen.KernelIdeal.Skeleton
import proofs.«134191_j78786880077968_1_alg».proof.Proof.LibMatmulRows
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.At

open Idealize.ShloMosaic Idealize.ShloMosaic.ValueIdx Cert.KernelIdeal Cert.KernelIdeal.Gen
open scoped BigOperators

/-! ## The two contractions' operand indices, coordinate by coordinate -/

theorem blockDot_l0 (i : S20000x64.Idx) (q : dot_S20000x64_S64x64_S20000x64_1_0_0_1_n_n.contr.Idx) : (dot_S20000x64_S64x64_S20000x64_1_0_0_1_n_n.lhsIdx i q 0).val = (i 0).val := by
  unfold DotDims.lhsIdx
  rw [dif_neg (show ¬(0 : Fin S20000x64.rank) ∈ dot_S20000x64_S64x64_S20000x64_1_0_0_1_n_n.lhsBatch by decide), dif_pos (show (0 : Fin S20000x64.rank) ∈ dot_S20000x64_S64x64_S20000x64_1_0_0_1_n_n.lhsNonContracting by decide)]
  rfl
theorem blockDot_l1 (i : S20000x64.Idx) (q : dot_S20000x64_S64x64_S20000x64_1_0_0_1_n_n.contr.Idx) : (dot_S20000x64_S64x64_S20000x64_1_0_0_1_n_n.lhsIdx i q 1).val = (q ⟨0, by decide⟩).val :=
  dot_S20000x64_S64x64_S20000x64_1_0_0_1_n_n.lhsIdx_val_of_single rfl i q
theorem blockDot_r0 (i : S20000x64.Idx) (q : dot_S20000x64_S64x64_S20000x64_1_0_0_1_n_n.contr.Idx) : (dot_S20000x64_S64x64_S20000x64_1_0_0_1_n_n.rhsIdx i q 0).val = (q ⟨0, by decide⟩).val :=
  dot_S20000x64_S64x64_S20000x64_1_0_0_1_n_n.rhsIdx_val_of_single rfl i q
theorem blockDot_r1 (i : S20000x64.Idx) (q : dot_S20000x64_S64x64_S20000x64_1_0_0_1_n_n.contr.Idx) : (dot_S20000x64_S64x64_S20000x64_1_0_0_1_n_n.rhsIdx i q 1).val = (i 1).val := by
  unfold DotDims.rhsIdx
  rw [dif_neg (show ¬(1 : Fin S64x64.rank) ∈ dot_S20000x64_S64x64_S20000x64_1_0_0_1_n_n.rhsBatch by decide), dif_pos (show (1 : Fin S64x64.rank) ∈ dot_S20000x64_S64x64_S20000x64_1_0_0_1_n_n.rhsNonContracting by decide)]
  rfl

theorem headDot_l0 (i : S512x2.Idx) (q : dot_S512x64_S64x2_S512x2_1_0_0_1_n_n.contr.Idx) : (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem headDot_l1 (i : S512x2.Idx) (q : dot_S512x64_S64x2_S512x2_1_0_0_1_n_n.contr.Idx) : (dot_S512x64_S64x2_S512x2_1_0_0_1_n_n.lhsIdx i q 1).val = (q ⟨0, by decide⟩).val :=
  dot_S512x64_S64x2_S512x2_1_0_0_1_n_n.lhsIdx_val_of_single rfl i q
theorem headDot_r0 (i : S512x2.Idx) (q : dot_S512x64_S64x2_S512x2_1_0_0_1_n_n.contr.Idx) : (dot_S512x64_S64x2_S512x2_1_0_0_1_n_n.rhsIdx i q 0).val = (q ⟨0, by decide⟩).val :=
  dot_S512x64_S64x2_S512x2_1_0_0_1_n_n.rhsIdx_val_of_single rfl i q
theorem headDot_r1 (i : S512x2.Idx) (q : dot_S512x64_S64x2_S512x2_1_0_0_1_n_n.contr.Idx) : (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

/-- The word of the float zero, as the programs print it. -/
abbrev zeroWord : EReal := FloatOps.ofBits (F := Ideal) .f32 0x00000000#32

/-- The product body at (r, q). -/
theorem pay0_at (x0 : Vec Ideal S20000x64 .f32) (x1 : Vec Ideal S64x64 .f32) (r : Fin 20000) (q : Fin 64) :
    k0_pay1 (F := Ideal) x0 x1 (ix2 r q) = ∑ k : Fin 64, x0 (ix2 r k) * x1 (ix2 k q) := by
  unfold k0_pay1
  exact Cert.LibMatmulRows.matmul_rows dot_S20000x64_S64x64_S20000x64_1_0_0_1_n_n rfl rfl blockDot_l0 blockDot_l1 blockDot_r0 blockDot_r1
    (truncf .bf16 x0 bitsLt_bf16_f32) (truncf .bf16 x1 bitsLt_bf16_f32) r q

/-- A one-row block cast to its own shape and laid along the 20000 rows reads its row at the column. -/
theorem rowBlock_apply (B : Vec Ideal S1x64 .f32) (r : Fin 20000) (k : Fin 64) :
    broadcastTo S20000x64 (shapeCast S1x64 B shapeCasts_S1x64_S1x64) broadcasts_S1x64_S20000x64 (ix2 r k) = B (ix2 (0 : Fin 1) k) := by
  rw [shapeCast_self]
  exact broadcastTo_1b_ab_apply B broadcasts_S1x64_S20000x64 r k

/-- The biased, clamped block at (r, k). -/
theorem act_at (x0 : Vec Ideal S20000x64 .f32) (B : Vec Ideal S1x64 .f32) (r : Fin 20000) (k : Fin 64) :
    maximumf (addf (shapeCast S20000x64 x0 shapeCasts_S20000x64_S20000x64)
        (broadcastTo S20000x64 (shapeCast S1x64 B shapeCasts_S1x64_S1x64) broadcasts_S1x64_S20000x64))
      (broadcast S20000x64 (Scalar.ofBits (F := Ideal) .f32 0x00000000#32)) (ix2 r k)
      = max (x0 (ix2 r k) + B (ix2 (0 : Fin 1) k)) zeroWord := by
  show max (shapeCast S20000x64 x0 shapeCasts_S20000x64_S20000x64 (ix2 r k)
      + broadcastTo S20000x64 (shapeCast S1x64 B shapeCasts_S1x64_S1x64) broadcasts_S1x64_S20000x64 (ix2 r k)) _ = _
  rw [rowBlock_apply, shapeCast_self]
  rfl

/-- The bias, clamp and product body at (r, q). -/
theorem pay1_at (x0 : Vec Ideal S20000x64 .f32) (B : Vec Ideal S1x64 .f32) (W : Vec Ideal S64x64 .f32) (r : Fin 20000) (q : Fin 64) :
    k1_pay1 (F := Ideal) x0 B W (ix2 r q) = ∑ k : Fin 64, max (x0 (ix2 r k) + B (ix2 (0 : Fin 1) k)) zeroWord * W (ix2 k q) := by
  unfold k1_pay1
  refine (Cert.LibMatmulRows.matmul_rows dot_S20000x64_S64x64_S20000x64_1_0_0_1_n_n rfl rfl blockDot_l0 blockDot_l1 blockDot_r0 blockDot_r1
    (truncf .bf16 (maximumf (addf (shapeCast S20000x64 x0 shapeCasts_S20000x64_S20000x64)
        (broadcastTo S20000x64 (shapeCast S1x64 B shapeCasts_S1x64_S1x64) broadcasts_S1x64_S20000x64))
      (broadcast S20000x64 (Scalar.ofBits (F := Ideal) .f32 0x00000000#32))) bitsLt_bf16_f32)
    (truncf .bf16 W bitsLt_bf16_f32) r q).trans ?_
  refine Finset.sum_congr rfl fun k _ => ?_
  exact congrArg (· * W (ix2 k q)) (act_at x0 B r k)

/-- The bias and clamp body at (r, q). -/
theorem pay2_at (x0 : Vec Ideal S20000x64 .f32) (B : Vec Ideal S1x64 .f32) (r : Fin 20000) (q : Fin 64) :
    k2_pay1 (F := Ideal) x0 B (ix2 r q) = max (x0 (ix2 r q) + B (ix2 (0 : Fin 1) q)) zeroWord := by
  unfold k2_pay1
  exact act_at x0 B r q

/-- The head body at (r, q). -/
theorem pay3_at (P : Vec Ideal S512x64 .f32) (W : Vec Ideal S64x2 .f32) (B : Vec Ideal S1x2 .f32) (r : Fin 512) (q : Fin 2) :
    k3_pay1 (F := Ideal) P W B (ix2 r q) = (∑ k : Fin 64, P (ix2 r k) * W (ix2 k q)) + B (ix2 (0 : Fin 1) q) := by
  unfold k3_pay1
  show matmul dot_S512x64_S64x2_S512x2_1_0_0_1_n_n none (truncf .bf16 (shapeCast S512x64 P shapeCasts_S512x64_S512x64) bitsLt_bf16_f32)
        (truncf .bf16 W bitsLt_bf16_f32) (constant (F := Ideal) S512x2 .f32 0x00000000#32) (ix2 r q)
      + broadcastTo S512x2 (shapeCast S1x2 B shapeCasts_S1x2_S1x2) broadcasts_S1x2_S512x2 (ix2 r q) = _
  rw [Cert.LibMatmulRows.matmul_rows dot_S512x64_S64x2_S512x2_1_0_0_1_n_n rfl rfl headDot_l0 headDot_l1 headDot_r0 headDot_r1
      (truncf .bf16 (shapeCast S512x64 P shapeCasts_S512x64_S512x64) bitsLt_bf16_f32) (truncf .bf16 W bitsLt_bf16_f32) r q,
    shapeCast_self, shapeCast_self]
  rw [broadcastTo_1b_ab_apply B broadcasts_S1x2_S512x2 r q]
  rfl

end Cert.KernelIdeal.At

end
-- ==== Proof.GcnAt.lean ====
/-
  The dense pieces of the network read at an entry, over the extended reals with the exact operations.

  * the node features times a weight matrix at (p, q): the sum over k of x(p, k) * w(k, q);
  * a one-row bias laid along the rows at (p, k): the row's entry at k;
  * the biased, clamped features at (p, k): max(a(p, k) + B(0, k), 0) with the zero kept as the printed word;
  * the head at (r, q): the sum over k of p(r, k) * w(k, q), plus B(0, q).
  Only the definition of a matrix product as a sum is used: no law that needs finite entries.
-/
import proofs.«134191_j78786880077968_1_alg».proof.Proof.Gcn
import proofs.«134191_j78786880077968_1_alg».proof.Proof.LibMatmulRows
import Idealize.ShloMosaic.Lib.Pipeline.Value
import Idealize.ShloMosaic.Lib.ValueLayout
import Idealize.ShloMosaic.Lib.ValueIdx
import Idealize.ShloMosaic.PureOps.Ideal.Laws

noncomputable section

namespace Cert.Gcn

open Idealize.ShloMosaic Idealize.ShloMosaic.ValueIdx Cert.ReferenceIdeal Cert.ReferenceIdeal.Gen
open scoped BigOperators

/-! ## The two contractions' operand indices, coordinate by coordinate -/

theorem nodesDot_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem nodesDot_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem nodesDot_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem nodesDot_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem headDot_l0 (i : S512x2.Idx) (q : dot_S512x64_S64x2_S512x2_1_0_0_1_n_n.contr.Idx) : (dot_S512x64_S64x2_S512x2_1_0_0_1_n_n.lhsIdx i q 0).val = (i 0).val := by
  unfold DotDims.lhsIdx
  rw [dif_neg (show ¬(0 : Fin S512x64.rank) ∈ dot_S512x64_S64x2_S512x2_1_0_0_1_n_n.lhsBatch by decide), dif_pos (show (0 : Fin S512x64.rank) ∈ dot_S512x64_S64x2_S512x2_1_0_0_1_n_n.lhsNonContracting by decide)]
  rfl
theorem headDot_l1 (i : S512x2.Idx) (q : dot_S512x64_S64x2_S512x2_1_0_0_1_n_n.contr.Idx) : (dot_S512x64_S64x2_S512x2_1_0_0_1_n_n.lhsIdx i q 1).val = (q ⟨0, by decide⟩).val :=
  dot_S512x64_S64x2_S512x2_1_0_0_1_n_n.lhsIdx_val_of_single rfl i q
theorem headDot_r0 (i : S512x2.Idx) (q : dot_S512x64_S64x2_S512x2_1_0_0_1_n_n.contr.Idx) : (dot_S512x64_S64x2_S512x2_1_0_0_1_n_n.rhsIdx i q 0).val = (q ⟨0, by decide⟩).val :=
  dot_S512x64_S64x2_S512x2_1_0_0_1_n_n.rhsIdx_val_of_single rfl i q
theorem headDot_r1 (i : S512x2.Idx) (q : dot_S512x64_S64x2_S512x2_1_0_0_1_n_n.contr.Idx) : (dot_S512x64_S64x2_S512x2_1_0_0_1_n_n.rhsIdx i q 1).val = (i 1).val := by
  unfold DotDims.rhsIdx
  rw [dif_neg (show ¬(1 : Fin S64x2.rank) ∈ dot_S512x64_S64x2_S512x2_1_0_0_1_n_n.rhsBatch by decide), dif_pos (show (1 : Fin S64x2.rank) ∈ dot_S512x64_S64x2_S512x2_1_0_0_1_n_n.rhsNonContracting by decide)]
  rfl

/-! ## The pieces at an entry -/

/-- The word of the float zero, as the programs print it. -/
abbrev zeroWord : EReal := FloatOps.ofBits (F := Ideal) .f32 0x00000000#32

/-- (x W)(p, q) is the sum over k of x(p, k) * W(k, q). -/
theorem dense_apply (x : (⟨S100000x64, .f32⟩ : BufTy).Contents (Elt Ideal)) (w : (⟨S64x64, .f32⟩ : BufTy).Contents (Elt Ideal)) (p : Fin 100000) (q : Fin 64) :
    dense (F := Ideal) x w (ix2 p q) = ∑ k : Fin 64, x (ix2 p k) * w (ix2 k q) :=
  Cert.LibMatmulRows.hostdot_rows dot_S100000x64_S64x64_S100000x64_1_0_0_1_n_n rfl rfl nodesDot_l0 nodesDot_l1 nodesDot_r0 nodesDot_r1 x w p q

/-- A one-row matrix laid along the 100000 rows reads its row at the column. -/
theorem rowBroadcast_apply {α : Type} (B : S1x64.Idx → α) (p : Fin 100000) (k : Fin 64) :
    broadcastInDim S100000x64 ![0, 1] bcast_S1x64_S100000x64_0_1 B (ix2 p k) = B (ix2 (0 : Fin 1) k) :=
  broadcastInDim_apply _ bcast_S1x64_S100000x64_0_1 B (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])

/-- The biased features at (p, k). -/
theorem biased_apply (a : (⟨S100000x64, .f32⟩ : BufTy).Contents (Elt Ideal)) (B : (⟨S1x64, .f32⟩ : BufTy).Contents (Elt Ideal)) (p : Fin 100000) (k : Fin 64) :
    biased (F := Ideal) a B (ix2 p k) = a (ix2 p k) + B (ix2 (0 : Fin 1) k) := by
  show a (ix2 p k) + broadcastInDim S100000x64 ![0, 1] bcast_S1x64_S100000x64_0_1 B (ix2 p k) = _
  rw [rowBroadcast_apply]

/-- The clamped features at an entry. -/
theorem rectify_apply (z : (⟨S100000x64, .f32⟩ : BufTy).Contents (Elt Ideal)) (i : S100000x64.Idx) :
    rectify (F := Ideal) z i = max (z i) zeroWord := by
  show max (z i) (broadcastInDim S100000x64 ![] bcast_S_S100000x64 (constant (F := Ideal) S_ .f32 0x00000000#32) i) = _
  rw [broadcastInDim_apply _ bcast_S_S100000x64 (constant (F := Ideal) S_ .f32 0x00000000#32) i (fun a => a.elim0) (fun a => a.elim0)]
  rfl

/-- A one-row matrix of two entries laid along the 512 rows reads its row at the column. -/
theorem rowBroadcast2_apply {α : Type} (B : S1x2.Idx → α) (r : Fin 512) (q : Fin 2) :
    broadcastInDim S512x2 ![0, 1] bcast_S1x2_S512x2_0_1 B (ix2 r q) = B (ix2 (0 : Fin 1) q) :=
  broadcastInDim_apply _ bcast_S1x2_S512x2_0_1 B (ix2 r q) (ix2 (0 : Fin 1) q) (fun a => match a with
    | ⟨0, _⟩ => by show 0 = if (1 : Nat) = 1 then 0 else r.val; rw [if_pos rfl]
    | ⟨1, _⟩ => by show q.val = if (2 : Nat) = 1 then 0 else q.val; rw [if_neg (by decide)])

/-- The head at (r, q): row r of the pooled features against column q of the weights, plus the bias row at q. -/
theorem head_apply (p : (⟨S512x64, .f32⟩ : BufTy).Contents (Elt Ideal)) (w : (⟨S64x2, .f32⟩ : BufTy).Contents (Elt Ideal)) (B : (⟨S1x2, .f32⟩ : BufTy).Contents (Elt Ideal)) (r : Fin 512) (q : Fin 2) :
    head (F := Ideal) p w B (ix2 r q) = (∑ k : Fin 64, p (ix2 r k) * w (ix2 k q)) + B (ix2 (0 : Fin 1) q) := by
  show Host.dotGeneral (F := Ideal) dot_S512x64_S64x2_S512x2_1_0_0_1_n_n none p w (ix2 r q)
      + broadcastInDim S512x2 ![0, 1] bcast_S1x2_S512x2_0_1 B (ix2 r q) = _
  rw [rowBroadcast2_apply,
    Cert.LibMatmulRows.hostdot_rows dot_S512x64_S64x2_S512x2_1_0_0_1_n_n rfl rfl headDot_l0 headDot_l1 headDot_r0 headDot_r1 p w r q]

/-- A vector of 64 entries cast to one row is the vector laid out as one row. -/
theorem cast_eq_rowOf64 (b : (⟨S64, .f32⟩ : BufTy).Contents (Elt Ideal)) (h : S64.ShapeCasts S1x64) : shapeCast S1x64 b h = rowOf64 (F := Ideal) b := by
  funext j
  obtain ⟨u, i, rfl⟩ : ∃ (u : Fin 1) (i : Fin 64), j = ix2 u i := ⟨j 0, j 1, eq_ix2 j⟩
  rw [shapeCast_a_1a_apply b h u i]
  exact (broadcastInDim_apply _ bcast_S64_S1x64_1 b (ix2 u i) (ix1 i) (fun a => match a with
    | ⟨0, _⟩ => by show i.val = if (64 : Nat) = 1 then 0 else i.val; rw [if_neg (by decide)])).symm

/-- A vector of 2 entries cast to one row is the vector laid out as one row. -/
theorem cast_eq_rowOf2 (b : (⟨S2, .f32⟩ : BufTy).Contents (Elt Ideal)) (h : S2.ShapeCasts S1x2) : shapeCast S1x2 b h = rowOf2 (F := Ideal) b := by
  funext j
  obtain ⟨u, i, rfl⟩ : ∃ (u : Fin 1) (i : Fin 2), j = ix2 u i := ⟨j 0, j 1, eq_ix2 j⟩
  rw [shapeCast_a_1a_apply b h u i]
  exact (broadcastInDim_apply _ bcast_S2_S1x2_1 b (ix2 u i) (ix1 i) (fun a => match a with
    | ⟨0, _⟩ => by show i.val = if (2 : Nat) = 1 then 0 else i.val; rw [if_neg (by decide)])).symm

end Cert.Gcn

end
-- ==== Proof.Region0.lean ====
/-
  The first region: the node features times the first weight matrix, five blocks of 20000 rows.

  Point t loads rows 20000 t … 20000 t + 19999 of x and the whole of W, and writes back their product as the same rows
  of the output. Row p of a product depends on row p of the left factor only, so the five written blocks are the five
  row blocks of the one product x W, and together they cover all 100000 rows: after the region the output array is x W.
-/
import proofs.«134191_j78786880077968_1_alg».proof.Proof.Gen.KernelIdeal.Frame
import proofs.«134191_j78786880077968_1_alg».proof.Proof.KernelAt
import proofs.«134191_j78786880077968_1_alg».proof.Proof.GcnAt
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the five grid points: the blocked operand moves with the output along the rows,
    every other operand stays at its one block, and the output's row-block number is at most 4. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- What point t writes back is block t of the one whole-array function of the arrays the region finds. -/
theorem flushed_eq (c : Dev nD) (t : Fin cfg0.N) :
    (dat0 V c).flushed 2 t = ((cfg0.win 2).blk t).view.read (Elt Ideal) (Cert.Gcn.dense (F := Ideal) (V c main_arg0) (V c main_arg3)) := by
  show (cfg0.win 2).cut (grid0.coords t) ((dat0 V c).after 2 t) = _
  rw [after0_2]
  unfold out0_2
  rw [View.canon_unit_zero zeros2]
  simp only [View.ld_unit_zero (S := S20000x64) zeros2, View.ld_unit_zero (S := S64x64) zeros2]
  obtain ⟨e0, e1, e2, e3, e4, e5⟩ := idx_facts t
  funext j
  obtain ⟨r, q, rfl⟩ : ∃ (r : Fin 20000) (q : Fin 64), j = ix2 r q := ⟨j 0, j 1, eq_ix2 j⟩
  have hp : win0_2.index t (0 : Fin 2) * 20000 + r.val < 100000 := by have := r.isLt; omega
  have hi : ((cfg0.win 2).blk t).view.emb (ix2 r q) = ix2 (⟨win0_2.index t (0 : Fin 2) * 20000 + r.val, hp⟩ : Fin 100000) q := by
    funext a; apply Fin.ext
    match a with
    | ⟨0, _⟩ => show win0_2.index t (0 : Fin 2) * 20000 + 1 * r.val = win0_2.index t (0 : Fin 2) * 20000 + r.val; omega
    | ⟨1, _⟩ => show win0_2.index t (1 : Fin 2) * 64 + 1 * q.val = q.val; omega
  show k0_pay1 (iblk0 V c 0 t) (iblk0 V c 1 t) (ix2 r q) = (Cert.Gcn.dense (F := Ideal) (V c main_arg0) (V c main_arg3)) (((cfg0.win 2).blk t).view.emb (ix2 r q))
  refine (Cert.KernelIdeal.At.pay0_at (iblk0 V c 0 t) (iblk0 V c 1 t) r q).trans ?_
  rw [hi, Cert.Gcn.dense_apply]
  refine Finset.sum_congr rfl fun k _ => ?_
  have h0 : iblk0 V c 0 t (ix2 r k) = V c main_arg0 (ix2 (⟨win0_2.index t (0 : Fin 2) * 20000 + r.val, hp⟩ : Fin 100000) k) := by
    show V c main_arg0 (((cfg0.win 0).blk t).view.emb (ix2 r k)) = _
    refine congrArg (V c main_arg0) ?_
    funext a; apply Fin.ext
    match a with
    | ⟨0, _⟩ => show win0_0.index t (0 : Fin 2) * 20000 + 1 * r.val = win0_2.index t (0 : Fin 2) * 20000 + r.val; omega
    | ⟨1, _⟩ => show win0_0.index t (1 : Fin 2) * 64 + 1 * k.val = k.val; omega
  have h1 : iblk0 V c 1 t (ix2 k q) = V c main_arg3 (ix2 k q) := by
    show V c main_arg3 (((cfg0.win 1).blk t).view.emb (ix2 k q)) = _
    refine congrArg (V c main_arg3) ?_
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [h0, h1]

/-- An index of the output array is in point t's block iff each coordinate is in the block's range on its axis. -/
theorem mem_blk (t : Fin cfg0.N) (i : S100000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v32).slice (win0_2.rect t)).set ↔ _
  rw [View.set_slice_whole, Rect.mem_set_unit]
  exact Iff.rfl

/-- Every index of the output array is in the block of the point whose row-block number is its row divided by 20000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 20000, by omega⟩
  have q0 : win0_2.index t (0 : Fin 2) = (i 0).val / 20000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 64 ≤ (i 1).val ∧ (i 1).val < win0_2.index t (1 : Fin 2) * 64 + 64; omega

/-- The output array after the region, as one function of the arrays the region finds. -/
theorem value (c : Dev nD) (x : (⟨Cert.ReferenceIdeal.S100000x64, .f32⟩ : BufTy).Contents (Elt Ideal)) (w : (⟨Cert.ReferenceIdeal.S64x64, .f32⟩ : BufTy).Contents (Elt Ideal)) (hx : V c main_arg0 = x) (hw : V c main_arg3 = w) :
    (dat0 V c).arrAt 2 cfg0.N = Cert.Gcn.dense (F := Ideal) x w := by
  subst hx hw
  exact (dat0 V c).arrAt_eq_of_cover 2 _ (fun t _ => flushed_eq V c t) (cover)

end Cert.KernelIdeal.Region0

end
-- ==== Proof.Region1.lean ====
/-
  The second region: bias, clamp at zero and the second weight matrix, five blocks of 20000 rows.

  Point t loads rows 20000 t … 20000 t + 19999 of the aggregated features a, the one-row bias B and the whole of W, and
  writes back relu(a + B) W restricted to those rows. Each entry (p, q) of relu(a + B) W reads row p of a only, so the five
  written blocks are the row blocks of the one matrix relu(a + B) W and cover it.
-/
import proofs.«134191_j78786880077968_1_alg».proof.Proof.Gen.KernelIdeal.Frame
import proofs.«134191_j78786880077968_1_alg».proof.Proof.KernelAt
import proofs.«134191_j78786880077968_1_alg».proof.Proof.GcnAt
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the five grid points: the blocked operand moves with the output along the rows,
    every other operand stays at its one block, and the output's row-block number is at most 4. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 4 :=
  (by decide +kernel : ∀ t : Fin grid1.N, _)

/-- Every one of the five row blocks is some point's. -/
theorem idx_onto : ∀ q0 : Fin 5, ∃ t : Fin cfg1.N, win1_3.index t = ![q0.val, 0] :=
  (by decide +kernel : ∀ q0 : Fin 5, ∃ t : Fin grid1.N, win1_3.index t = ![q0.val, 0])

/-- What point t writes back is block t of the one whole-array function of the arrays the region finds. -/
theorem flushed_eq (c : Dev nD) (t : Fin cfg1.N) :
    (dat1 V c).flushed 3 t = ((cfg1.win 3).blk t).view.read (Elt Ideal) (Cert.Gcn.dense (F := Ideal) (Cert.Gcn.rectify (F := Ideal) (Cert.Gcn.biased (F := Ideal) (V c main_v45) (V c main_v46))) (V c main_arg5)) := by
  show (cfg1.win 3).cut (grid1.coords t) ((dat1 V c).after 3 t) = _
  rw [after1_3]
  unfold out1_3
  rw [View.canon_unit_zero zeros2]
  simp only [View.ld_unit_zero (S := S20000x64) zeros2, View.ld_unit_zero (S := S1x64) zeros2, View.ld_unit_zero (S := S64x64) zeros2]
  obtain ⟨e0, e1, e2, e3, e4, e5, e6, e7⟩ := idx_facts t
  funext j
  obtain ⟨r, q, rfl⟩ : ∃ (r : Fin 20000) (q : Fin 64), j = ix2 r q := ⟨j 0, j 1, eq_ix2 j⟩
  have hp : win1_3.index t (0 : Fin 2) * 20000 + r.val < 100000 := by have := r.isLt; omega
  have hi : ((cfg1.win 3).blk t).view.emb (ix2 r q) = ix2 (⟨win1_3.index t (0 : Fin 2) * 20000 + r.val, hp⟩ : Fin 100000) q := by
    funext a; apply Fin.ext
    match a with
    | ⟨0, _⟩ => show win1_3.index t (0 : Fin 2) * 20000 + 1 * r.val = win1_3.index t (0 : Fin 2) * 20000 + r.val; omega
    | ⟨1, _⟩ => show win1_3.index t (1 : Fin 2) * 64 + 1 * q.val = q.val; omega
  show k1_pay1 (iblk1 V c 0 t) (iblk1 V c 1 t) (iblk1 V c 2 t) (ix2 r q) = (Cert.Gcn.dense (F := Ideal) (Cert.Gcn.rectify (F := Ideal) (Cert.Gcn.biased (F := Ideal) (V c main_v45) (V c main_v46))) (V c main_arg5)) (((cfg1.win 3).blk t).view.emb (ix2 r q))
  refine (Cert.KernelIdeal.At.pay1_at (iblk1 V c 0 t) (iblk1 V c 1 t) (iblk1 V c 2 t) r q).trans ?_
  rw [hi, Cert.Gcn.dense_apply]
  refine Finset.sum_congr rfl fun k _ => ?_
  have h0 : iblk1 V c 0 t (ix2 r k) = V c main_v45 (ix2 (⟨win1_3.index t (0 : Fin 2) * 20000 + r.val, hp⟩ : Fin 100000) k) := by
    show V c main_v45 (((cfg1.win 0).blk t).view.emb (ix2 r k)) = _
    refine congrArg (V c main_v45) ?_
    funext a; apply Fin.ext
    match a with
    | ⟨0, _⟩ => show win1_0.index t (0 : Fin 2) * 20000 + 1 * r.val = win1_3.index t (0 : Fin 2) * 20000 + r.val; omega
    | ⟨1, _⟩ => show win1_0.index t (1 : Fin 2) * 64 + 1 * k.val = k.val; omega
  have h1 : iblk1 V c 1 t (ix2 (0 : Fin 1) k) = V c main_v46 (ix2 (0 : Fin 1) k) := by
    show V c main_v46 (((cfg1.win 1).blk t).view.emb (ix2 (0 : Fin 1) k)) = _
    refine congrArg (V c main_v46) ?_
    funext a; apply Fin.ext
    match a with
    | ⟨0, _⟩ => show win1_1.index t (0 : Fin 2) * 1 + 1 * (0 : Fin 1).val = (0 : Fin 1).val; omega
    | ⟨1, _⟩ => show win1_1.index t (1 : Fin 2) * 64 + 1 * k.val = k.val; omega
  have h2 : iblk1 V c 2 t (ix2 k q) = V c main_arg5 (ix2 k q) := by
    show V c main_arg5 (((cfg1.win 2).blk t).view.emb (ix2 k q)) = _
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 64 + 1 * q.val = q.val; omega
  rw [Cert.Gcn.rectify_apply, Cert.Gcn.biased_apply, h0, h1, h2]

/-- An index of the output array is in point t's block iff each coordinate is in the block's range on its axis. -/
theorem mem_blk (t : Fin cfg1.N) (i : S100000x64.Idx) :
    i ∈ ((cfg1.win 3).blk t).view.set ↔ ∀ a : Fin 2, win1_3.index t a * S20000x64.size a ≤ (i a).val ∧ (i a).val < win1_3.index t a * S20000x64.size a + S20000x64.size a := by
  show i ∈ ((View.whole main_v47).slice (win1_3.rect t)).set ↔ _
  rw [View.set_slice_whole, Rect.mem_set_unit]
  exact Iff.rfl

/-- Every index of the output array is in the block of the point whose row-block number is its row divided by 20000. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ := idx_onto ⟨(i 0).val / 20000, by omega⟩
  have q0 : win1_3.index t (0 : Fin 2) = (i 0).val / 20000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 20000 ≤ (i 0).val ∧ (i 0).val < win1_3.index t (0 : Fin 2) * 20000 + 20000; omega
  | ⟨1, _⟩ => show win1_3.index t (1 : Fin 2) * 64 ≤ (i 1).val ∧ (i 1).val < win1_3.index t (1 : Fin 2) * 64 + 64; omega

/-- The output array after the region, as one function of the arrays the region finds. -/
theorem value (c : Dev nD) (a : (⟨Cert.ReferenceIdeal.S100000x64, .f32⟩ : BufTy).Contents (Elt Ideal)) (B : (⟨Cert.ReferenceIdeal.S1x64, .f32⟩ : BufTy).Contents (Elt Ideal)) (w : (⟨Cert.ReferenceIdeal.S64x64, .f32⟩ : BufTy).Contents (Elt Ideal)) (ha : V c main_v45 = a) (hB : V c main_v46 = B) (hw : V c main_arg5 = w) :
    (dat1 V c).arrAt 3 cfg1.N = Cert.Gcn.dense (F := Ideal) (Cert.Gcn.rectify (F := Ideal) (Cert.Gcn.biased (F := Ideal) a B)) w := by
  subst ha hB hw
  exact (dat1 V c).arrAt_eq_of_cover 3 _ (fun t _ => flushed_eq V c t) (cover)

end Cert.KernelIdeal.Region1

end
-- ==== Proof.Region2.lean ====
/-
  The third region: bias and clamp at zero, five blocks of 20000 rows.

  Point t loads rows 20000 t … 20000 t + 19999 of the aggregated features a and the one-row bias B and writes back
  relu(a + B) on those rows: an entrywise function of a, so the five written blocks tile the one array relu(a + B).
-/
import proofs.«134191_j78786880077968_1_alg».proof.Proof.Gen.KernelIdeal.Frame
import proofs.«134191_j78786880077968_1_alg».proof.Proof.KernelAt
import proofs.«134191_j78786880077968_1_alg».proof.Proof.GcnAt
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the five grid points: the blocked operand moves with the output along the rows,
    every other operand stays at its one block, and the output's row-block number is at most 4. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 4 :=
  (by decide +kernel : ∀ t : Fin grid2.N, _)

/-- Every one of the five row blocks is some point's. -/
theorem idx_onto : ∀ q0 : Fin 5, ∃ t : Fin cfg2.N, win2_2.index t = ![q0.val, 0] :=
  (by decide +kernel : ∀ q0 : Fin 5, ∃ t : Fin grid2.N, win2_2.index t = ![q0.val, 0])

/-- What point t writes back is block t of the one whole-array function of the arrays the region finds. -/
theorem flushed_eq (c : Dev nD) (t : Fin cfg2.N) :
    (dat2 V c).flushed 2 t = ((cfg2.win 2).blk t).view.read (Elt Ideal) (Cert.Gcn.rectify (F := Ideal) (Cert.Gcn.biased (F := Ideal) (V c main_v60) (V c main_v61))) := by
  show (cfg2.win 2).cut (grid2.coords t) ((dat2 V c).after 2 t) = _
  rw [after2_2]
  unfold out2_2
  rw [View.canon_unit_zero zeros2]
  simp only [View.ld_unit_zero (S := S20000x64) zeros2, View.ld_unit_zero (S := S1x64) zeros2]
  obtain ⟨e0, e1, e2, e3, e4, e5⟩ := idx_facts t
  funext j
  obtain ⟨r, q, rfl⟩ : ∃ (r : Fin 20000) (q : Fin 64), j = ix2 r q := ⟨j 0, j 1, eq_ix2 j⟩
  have hp : win2_2.index t (0 : Fin 2) * 20000 + r.val < 100000 := by have := r.isLt; omega
  have hi : ((cfg2.win 2).blk t).view.emb (ix2 r q) = ix2 (⟨win2_2.index t (0 : Fin 2) * 20000 + r.val, hp⟩ : Fin 100000) q := by
    funext a; apply Fin.ext
    match a with
    | ⟨0, _⟩ => show win2_2.index t (0 : Fin 2) * 20000 + 1 * r.val = win2_2.index t (0 : Fin 2) * 20000 + r.val; omega
    | ⟨1, _⟩ => show win2_2.index t (1 : Fin 2) * 64 + 1 * q.val = q.val; omega
  show k2_pay1 (iblk2 V c 0 t) (iblk2 V c 1 t) (ix2 r q) = (Cert.Gcn.rectify (F := Ideal) (Cert.Gcn.biased (F := Ideal) (V c main_v60) (V c main_v61))) (((cfg2.win 2).blk t).view.emb (ix2 r q))
  refine (Cert.KernelIdeal.At.pay2_at (iblk2 V c 0 t) (iblk2 V c 1 t) r q).trans ?_
  rw [hi, Cert.Gcn.rectify_apply, Cert.Gcn.biased_apply]
  have h0 : iblk2 V c 0 t (ix2 r q) = V c main_v60 (ix2 (⟨win2_2.index t (0 : Fin 2) * 20000 + r.val, hp⟩ : Fin 100000) q) := by
    show V c main_v60 (((cfg2.win 0).blk t).view.emb (ix2 r q)) = _
    refine congrArg (V c main_v60) ?_
    funext a; apply Fin.ext
    match a with
    | ⟨0, _⟩ => show win2_0.index t (0 : Fin 2) * 20000 + 1 * r.val = win2_2.index t (0 : Fin 2) * 20000 + r.val; omega
    | ⟨1, _⟩ => show win2_0.index t (1 : Fin 2) * 64 + 1 * q.val = q.val; omega
  have h1 : iblk2 V c 1 t (ix2 (0 : Fin 1) q) = V c main_v61 (ix2 (0 : Fin 1) q) := by
    show V c main_v61 (((cfg2.win 1).blk t).view.emb (ix2 (0 : Fin 1) q)) = _
    refine congrArg (V c main_v61) ?_
    funext a; apply Fin.ext
    match a with
    | ⟨0, _⟩ => show win2_1.index t (0 : Fin 2) * 1 + 1 * (0 : Fin 1).val = (0 : Fin 1).val; omega
    | ⟨1, _⟩ => show win2_1.index t (1 : Fin 2) * 64 + 1 * q.val = q.val; omega
  rw [h0, h1]

/-- An index of the output array is in point t's block iff each coordinate is in the block's range on its axis. -/
theorem mem_blk (t : Fin cfg2.N) (i : S100000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v62).slice (win2_2.rect t)).set ↔ _
  rw [View.set_slice_whole, Rect.mem_set_unit]
  exact Iff.rfl

/-- Every index of the output array is in the block of the point whose row-block number is its row divided by 20000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 20000, by omega⟩
  have q0 : win2_2.index t (0 : Fin 2) = (i 0).val / 20000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 64 ≤ (i 1).val ∧ (i 1).val < win2_2.index t (1 : Fin 2) * 64 + 64; omega

/-- The output array after the region, as one function of the arrays the region finds. -/
theorem value (c : Dev nD) (a : (⟨Cert.ReferenceIdeal.S100000x64, .f32⟩ : BufTy).Contents (Elt Ideal)) (B : (⟨Cert.ReferenceIdeal.S1x64, .f32⟩ : BufTy).Contents (Elt Ideal)) (ha : V c main_v60 = a) (hB : V c main_v61 = B) :
    (dat2 V c).arrAt 2 cfg2.N = Cert.Gcn.rectify (F := Ideal) (Cert.Gcn.biased (F := Ideal) a B) := by
  subst ha hB
  exact (dat2 V c).arrAt_eq_of_cover 2 _ (fun t _ => flushed_eq V c t) (cover)

end Cert.KernelIdeal.Region2

end
-- ==== Proof.Region3.lean ====
/-
  The fourth region: the linear head, one grid point.

  Its one point loads the whole pooled matrix p [512, 64], the whole weight matrix w [64, 2] and the one-row bias B [1, 2]
  and writes back p w + B as the whole output [512, 2]: the block of every window is its whole array, so what is written
  back is the head of the arrays the region finds, and the one block covers every index.
-/
import proofs.«134191_j78786880077968_1_alg».proof.Proof.Gen.KernelIdeal.Frame
import proofs.«134191_j78786880077968_1_alg».proof.Proof.KernelAt
import proofs.«134191_j78786880077968_1_alg».proof.Proof.GcnAt
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps, decided over the one grid point: every window stays at its one block. -/
theorem idx_facts : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0 :=
  (by decide +kernel : ∀ t : Fin grid3.N, _)

/-- What the point writes back is the head of the arrays the region finds, read through the output's one block. -/
theorem flushed_eq (c : Dev nD) (t : Fin cfg3.N) :
    (dat3 V c).flushed 3 t = ((cfg3.win 3).blk t).view.read (Elt Ideal) (Cert.Gcn.head (F := Ideal) (V c main_v74) (V c main_arg7) (V c main_v75)) := by
  show (cfg3.win 3).cut (grid3.coords t) ((dat3 V c).after 3 t) = _
  rw [after3_3]
  unfold out3_3
  rw [View.canon_unit_zero zeros2]
  simp only [View.ld_unit_zero (S := S512x64) zeros2, View.ld_unit_zero (S := S64x2) zeros2, View.ld_unit_zero (S := S1x2) zeros2]
  obtain ⟨e0, e1, e2, e3, e4, e5, e6, e7⟩ := idx_facts t
  funext j
  obtain ⟨r, q, rfl⟩ : ∃ (r : Fin 512) (q : Fin 2), j = ix2 r q := ⟨j 0, j 1, eq_ix2 j⟩
  have hi : ((cfg3.win 3).blk t).view.emb (ix2 r q) = ix2 r q := by
    funext a; apply Fin.ext
    match a with
    | ⟨0, _⟩ => show win3_3.index t (0 : Fin 2) * 512 + 1 * r.val = r.val; omega
    | ⟨1, _⟩ => show win3_3.index t (1 : Fin 2) * 2 + 1 * q.val = q.val; omega
  show k3_pay1 (iblk3 V c 0 t) (iblk3 V c 1 t) (iblk3 V c 2 t) (ix2 r q)
    = Cert.Gcn.head (F := Ideal) (V c main_v74) (V c main_arg7) (V c main_v75) (((cfg3.win 3).blk t).view.emb (ix2 r q))
  refine (Cert.KernelIdeal.At.pay3_at (iblk3 V c 0 t) (iblk3 V c 1 t) (iblk3 V c 2 t) r q).trans ?_
  rw [hi, Cert.Gcn.head_apply]
  have h0 : ∀ (k : Fin 64), iblk3 V c 0 t (ix2 r k) = V c main_v74 (ix2 r k) := fun k => by
    show V c main_v74 (((cfg3.win 0).blk t).view.emb (ix2 r k)) = _
    refine congrArg (V c main_v74) ?_
    funext a; apply Fin.ext
    match a with
    | ⟨0, _⟩ => show win3_0.index t (0 : Fin 2) * 512 + 1 * r.val = r.val; omega
    | ⟨1, _⟩ => show win3_0.index t (1 : Fin 2) * 64 + 1 * k.val = k.val; omega
  have h1 : ∀ (k : Fin 64), iblk3 V c 1 t (ix2 k q) = V c main_arg7 (ix2 k q) := fun k => by
    show V c main_arg7 (((cfg3.win 1).blk t).view.emb (ix2 k q)) = _
    refine congrArg (V c main_arg7) ?_
    funext a; apply Fin.ext
    match a with
    | ⟨0, _⟩ => show win3_1.index t (0 : Fin 2) * 64 + 1 * k.val = k.val; omega
    | ⟨1, _⟩ => show win3_1.index t (1 : Fin 2) * 2 + 1 * q.val = q.val; omega
  have h2 : iblk3 V c 2 t (ix2 (0 : Fin 1) q) = V c main_v75 (ix2 (0 : Fin 1) q) := by
    show V c main_v75 (((cfg3.win 2).blk t).view.emb (ix2 (0 : Fin 1) q)) = _
    refine congrArg (V c main_v75) ?_
    funext a; apply Fin.ext
    match a with
    | ⟨0, _⟩ => show win3_2.index t (0 : Fin 2) * 1 + 1 * (0 : Fin 1).val = (0 : Fin 1).val; omega
    | ⟨1, _⟩ => show win3_2.index t (1 : Fin 2) * 2 + 1 * q.val = q.val; omega
  rw [h2]
  refine congrArg (· + V c main_v75 (ix2 (0 : Fin 1) q)) ?_
  exact Finset.sum_congr rfl fun k _ => by rw [h0 k, h1 k]

/-- An index of the output array is in the point's block iff each coordinate is in the block's range on its axis. -/
theorem mem_blk (t : Fin cfg3.N) (i : S512x2.Idx) :
    i ∈ ((cfg3.win 3).blk t).view.set ↔ ∀ a : Fin 2, win3_3.index t a * S512x2.size a ≤ (i a).val ∧ (i a).val < win3_3.index t a * S512x2.size a + S512x2.size a := by
  show i ∈ ((View.whole main_v76).slice (win3_3.rect t)).set ↔ _
  rw [View.set_slice_whole, Rect.mem_set_unit]
  exact Iff.rfl

/-- Every index of the output array is in the one point's block. -/
theorem cover (i : S512x2.Idx) : ∃ t : Fin cfg3.N, (cfg3.win 3).flush t = true ∧ i ∈ ((cfg3.win 3).blk t).view.set := by
  have hi0 : (i 0).val < 512 := (i 0).isLt
  have hi1 : (i 1).val < 2 := (i 1).isLt
  obtain ⟨e0, e1, e2, e3, e4, e5, e6, e7⟩ := idx_facts t3_0
  refine ⟨t3_0, flush3_3 t3_0, ?_⟩
  rw [mem_blk]
  intro a
  match a with
  | ⟨0, _⟩ => show win3_3.index t3_0 (0 : Fin 2) * 512 ≤ (i 0).val ∧ (i 0).val < win3_3.index t3_0 (0 : Fin 2) * 512 + 512; omega
  | ⟨1, _⟩ => show win3_3.index t3_0 (1 : Fin 2) * 2 ≤ (i 1).val ∧ (i 1).val < win3_3.index t3_0 (1 : Fin 2) * 2 + 2; omega

/-- The output array after the region: the head of the arrays the region finds. -/
theorem value (c : Dev nD) (p : (⟨Cert.ReferenceIdeal.S512x64, .f32⟩ : BufTy).Contents (Elt Ideal)) (w : (⟨Cert.ReferenceIdeal.S64x2, .f32⟩ : BufTy).Contents (Elt Ideal)) (B : (⟨Cert.ReferenceIdeal.S1x2, .f32⟩ : BufTy).Contents (Elt Ideal))
    (hp : V c main_v74 = p) (hw : V c main_arg7 = w) (hB : V c main_v75 = B) :
    (dat3 V c).arrAt 3 cfg3.N = Cert.Gcn.head (F := Ideal) p w B := by
  subst hp hw hB
  exact (dat3 V c).arrAt_eq_of_cover 3 _ (fun t _ => flushed_eq V c t) (cover)

end Cert.KernelIdeal.Region3

end
-- ==== Proof.Chain.lean ====
/-
  The idealized kernel's result as the network of its arguments.

  The run's segment boundaries name the buffer contents one after the other: a stretch of host operations maps the
  contents when it starts to the contents when it ends, and a region replaces its output array by what its write-backs
  leave and keeps every other buffer. Walking these boundaries from the launch, each buffer that a later segment reads is
  a piece of the network applied to the argument arrays as launched:
    the message tables and weights; x W1; its aggregation; relu(. + b1) W2; its aggregation; relu(. + b2); the pool;
  and at the end the result buffer holds the head of the pooled features: the whole network.
  Every equation here is one step of that walk; the regions' values and the host stretches' values are proved elsewhere.
-/
import proofs.«134191_j78786880077968_1_alg».proof.Proof.Gen.KernelIdeal.Frame
import proofs.«134191_j78786880077968_1_alg».proof.Proof.Hosts
import proofs.«134191_j78786880077968_1_alg».proof.Proof.Region0
import proofs.«134191_j78786880077968_1_alg».proof.Proof.Region1
import proofs.«134191_j78786880077968_1_alg».proof.Proof.Region2
import proofs.«134191_j78786880077968_1_alg».proof.Proof.Region3
import proofs.«134191_j78786880077968_1_alg».proof.Proof.GcnAt

set_option maxRecDepth 16384

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## When the first region is entered -/

theorem at3_main_v3 : W3 m ρ c (Proc.devRef .tc main_v3) = (Cert.Gcn.srcOf (F := Ideal) (m ((c.tc : Thread nD τ).loc main_arg1))) :=
  Hosts.pre_src (W0 m ρ c) _ rfl

theorem at3_main_v6 : W3 m ρ c (Proc.devRef .tc main_v6) = (Cert.Gcn.dstOf (F := Ideal) (m ((c.tc : Thread nD τ).loc main_arg1))) :=
  Hosts.pre_dst (W0 m ρ c) _ rfl

theorem at3_main_v31 : W3 m ρ c (Proc.devRef .tc main_v31) = (Cert.Gcn.normOf (F := Ideal) (Cert.Gcn.srcOf (F := Ideal) (m ((c.tc : Thread nD τ).loc main_arg1))) (Cert.Gcn.dstOf (F := Ideal) (m ((c.tc : Thread nD τ).loc main_arg1)))) :=
  Hosts.pre_norm (W0 m ρ c) _ rfl

theorem at3_main_arg0 : W3 m ρ c (Proc.devRef .tc main_arg0) = (m ((c.tc : Thread nD τ).loc main_arg0)) :=
  Hosts.pre_keep_main_arg0 (W0 m ρ c)

theorem at3_main_arg2 : W3 m ρ c (Proc.devRef .tc main_arg2) = (m ((c.tc : Thread nD τ).loc main_arg2)) :=
  Hosts.pre_keep_main_arg2 (W0 m ρ c)

theorem at3_main_arg3 : W3 m ρ c (Proc.devRef .tc main_arg3) = (m ((c.tc : Thread nD τ).loc main_arg3)) :=
  Hosts.pre_keep_main_arg3 (W0 m ρ c)

theorem at3_main_arg4 : W3 m ρ c (Proc.devRef .tc main_arg4) = (m ((c.tc : Thread nD τ).loc main_arg4)) :=
  Hosts.pre_keep_main_arg4 (W0 m ρ c)

theorem at3_main_arg5 : W3 m ρ c (Proc.devRef .tc main_arg5) = (m ((c.tc : Thread nD τ).loc main_arg5)) :=
  Hosts.pre_keep_main_arg5 (W0 m ρ c)

theorem at3_main_arg6 : W3 m ρ c (Proc.devRef .tc main_arg6) = (m ((c.tc : Thread nD τ).loc main_arg6)) :=
  Hosts.pre_keep_main_arg6 (W0 m ρ c)

theorem at3_main_arg7 : W3 m ρ c (Proc.devRef .tc main_arg7) = (m ((c.tc : Thread nD τ).loc main_arg7)) :=
  Hosts.pre_keep_main_arg7 (W0 m ρ c)

theorem at3_main_arg8 : W3 m ρ c (Proc.devRef .tc main_arg8) = (m ((c.tc : Thread nD τ).loc main_arg8)) :=
  Hosts.pre_keep_main_arg8 (W0 m ρ c)

/-! ## When the first region is left: the dense product of the node features -/

theorem at4_main_v32 : W4 m ρ c (Proc.devRef .tc main_v32) = (Cert.Gcn.dense (F := Ideal) (m ((c.tc : Thread nD τ).loc main_arg0)) (m ((c.tc : Thread nD τ).loc main_arg3))) :=
  (W4_arr m ρ c 2).trans (Region0.value (V3 m ρ) c _ _ (at3_main_arg0 m ρ c) (at3_main_arg3 m ρ c))

theorem at4_main_v3 : W4 m ρ c (Proc.devRef .tc main_v3) = (Cert.Gcn.srcOf (F := Ideal) (m ((c.tc : Thread nD τ).loc main_arg1))) :=
  (W4_of_ne m ρ c main_v3 (by decide)).trans (at3_main_v3 m ρ c)

theorem at4_main_v6 : W4 m ρ c (Proc.devRef .tc main_v6) = (Cert.Gcn.dstOf (F := Ideal) (m ((c.tc : Thread nD τ).loc main_arg1))) :=
  (W4_of_ne m ρ c main_v6 (by decide)).trans (at3_main_v6 m ρ c)

theorem at4_main_v31 : W4 m ρ c (Proc.devRef .tc main_v31) = (Cert.Gcn.normOf (F := Ideal) (Cert.Gcn.srcOf (F := Ideal) (m ((c.tc : Thread nD τ).loc main_arg1))) (Cert.Gcn.dstOf (F := Ideal) (m ((c.tc : Thread nD τ).loc main_arg1)))) :=
  (W4_of_ne m ρ c main_v31 (by decide)).trans (at3_main_v31 m ρ c)

theorem at4_main_arg2 : W4 m ρ c (Proc.devRef .tc main_arg2) = (m ((c.tc : Thread nD τ).loc main_arg2)) :=
  (W4_of_ne m ρ c main_arg2 (by decide)).trans (at3_main_arg2 m ρ c)

theorem at4_main_arg4 : W4 m ρ c (Proc.devRef .tc main_arg4) = (m ((c.tc : Thread nD τ).loc main_arg4)) :=
  (W4_of_ne m ρ c main_arg4 (by decide)).trans (at3_main_arg4 m ρ c)

theorem at4_main_arg5 : W4 m ρ c (Proc.devRef .tc main_arg5) = (m ((c.tc : Thread nD τ).loc main_arg5)) :=
  (W4_of_ne m ρ c main_arg5 (by decide)).trans (at3_main_arg5 m ρ c)

theorem at4_main_arg6 : W4 m ρ c (Proc.devRef .tc main_arg6) = (m ((c.tc : Thread nD τ).loc main_arg6)) :=
  (W4_of_ne m ρ c main_arg6 (by decide)).trans (at3_main_arg6 m ρ c)

theorem at4_main_arg7 : W4 m ρ c (Proc.devRef .tc main_arg7) = (m ((c.tc : Thread nD τ).loc main_arg7)) :=
  (W4_of_ne m ρ c main_arg7 (by decide)).trans (at3_main_arg7 m ρ c)

theorem at4_main_arg8 : W4 m ρ c (Proc.devRef .tc main_arg8) = (m ((c.tc : Thread nD τ).loc main_arg8)) :=
  (W4_of_ne m ρ c main_arg8 (by decide)).trans (at3_main_arg8 m ρ c)

/-! ## When the second region is entered: the first aggregation, the first bias as a row -/

theorem at5_main_v45 : W5 m ρ c (Proc.devRef .tc main_v45) = (Cert.Gcn.agg1 (F := Ideal) (m ((c.tc : Thread nD τ).loc main_arg0)) (m ((c.tc : Thread nD τ).loc main_arg1)) (m ((c.tc : Thread nD τ).loc main_arg3))) :=
  Hosts.mid1_agg (W4 m ρ c) _ _ _ _ (at4_main_v3 m ρ c) (at4_main_v6 m ρ c) (at4_main_v31 m ρ c) (at4_main_v32 m ρ c)

theorem at5_main_v46 : W5 m ρ c (Proc.devRef .tc main_v46) = (Cert.Gcn.rowOf64 (F := Ideal) (m ((c.tc : Thread nD τ).loc main_arg4))) :=
  (Hosts.mid1_bias (W4 m ρ c) _ (at4_main_arg4 m ρ c)).trans (Cert.Gcn.cast_eq_rowOf64 _ _)

theorem at5_main_v3 : W5 m ρ c (Proc.devRef .tc main_v3) = (Cert.Gcn.srcOf (F := Ideal) (m ((c.tc : Thread nD τ).loc main_arg1))) :=
  (Hosts.mid1_keep_main_v3 (W4 m ρ c)).trans (at4_main_v3 m ρ c)

theorem at5_main_v6 : W5 m ρ c (Proc.devRef .tc main_v6) = (Cert.Gcn.dstOf (F := Ideal) (m ((c.tc : Thread nD τ).loc main_arg1))) :=
  (Hosts.mid1_keep_main_v6 (W4 m ρ c)).trans (at4_main_v6 m ρ c)

theorem at5_main_v31 : W5 m ρ c (Proc.devRef .tc main_v31) = (Cert.Gcn.normOf (F := Ideal) (Cert.Gcn.srcOf (F := Ideal) (m ((c.tc : Thread nD τ).loc main_arg1))) (Cert.Gcn.dstOf (F := Ideal) (m ((c.tc : Thread nD τ).loc main_arg1)))) :=
  (Hosts.mid1_keep_main_v31 (W4 m ρ c)).trans (at4_main_v31 m ρ c)

theorem at5_main_arg2 : W5 m ρ c (Proc.devRef .tc main_arg2) = (m ((c.tc : Thread nD τ).loc main_arg2)) :=
  (Hosts.mid1_keep_main_arg2 (W4 m ρ c)).trans (at4_main_arg2 m ρ c)

theorem at5_main_arg5 : W5 m ρ c (Proc.devRef .tc main_arg5) = (m ((c.tc : Thread nD τ).loc main_arg5)) :=
  (Hosts.mid1_keep_main_arg5 (W4 m ρ c)).trans (at4_main_arg5 m ρ c)

theorem at5_main_arg6 : W5 m ρ c (Proc.devRef .tc main_arg6) = (m ((c.tc : Thread nD τ).loc main_arg6)) :=
  (Hosts.mid1_keep_main_arg6 (W4 m ρ c)).trans (at4_main_arg6 m ρ c)

theorem at5_main_arg7 : W5 m ρ c (Proc.devRef .tc main_arg7) = (m ((c.tc : Thread nD τ).loc main_arg7)) :=
  (Hosts.mid1_keep_main_arg7 (W4 m ρ c)).trans (at4_main_arg7 m ρ c)

theorem at5_main_arg8 : W5 m ρ c (Proc.devRef .tc main_arg8) = (m ((c.tc : Thread nD τ).loc main_arg8)) :=
  (Hosts.mid1_keep_main_arg8 (W4 m ρ c)).trans (at4_main_arg8 m ρ c)

/-! ## When the second region is left: the second dense product -/

theorem at6_main_v47 : W6 m ρ c (Proc.devRef .tc main_v47) = (Cert.Gcn.dense (F := Ideal) (Cert.Gcn.rectify (F := Ideal) (Cert.Gcn.biased (F := Ideal) (Cert.Gcn.agg1 (F := Ideal) (m ((c.tc : Thread nD τ).loc main_arg0)) (m ((c.tc : Thread nD τ).loc main_arg1)) (m ((c.tc : Thread nD τ).loc main_arg3))) (Cert.Gcn.rowOf64 (F := Ideal) (m ((c.tc : Thread nD τ).loc main_arg4))))) (m ((c.tc : Thread nD τ).loc main_arg5))) :=
  (W6_arr m ρ c 3).trans (Region1.value (V5 m ρ) c _ _ _ (at5_main_v45 m ρ c) (at5_main_v46 m ρ c) (at5_main_arg5 m ρ c))

theorem at6_main_v3 : W6 m ρ c (Proc.devRef .tc main_v3) = (Cert.Gcn.srcOf (F := Ideal) (m ((c.tc : Thread nD τ).loc main_arg1))) :=
  (W6_of_ne m ρ c main_v3 (by decide)).trans (at5_main_v3 m ρ c)

theorem at6_main_v6 : W6 m ρ c (Proc.devRef .tc main_v6) = (Cert.Gcn.dstOf (F := Ideal) (m ((c.tc : Thread nD τ).loc main_arg1))) :=
  (W6_of_ne m ρ c main_v6 (by decide)).trans (at5_main_v6 m ρ c)

theorem at6_main_v31 : W6 m ρ c (Proc.devRef .tc main_v31) = (Cert.Gcn.normOf (F := Ideal) (Cert.Gcn.srcOf (F := Ideal) (m ((c.tc : Thread nD τ).loc main_arg1))) (Cert.Gcn.dstOf (F := Ideal) (m ((c.tc : Thread nD τ).loc main_arg1)))) :=
  (W6_of_ne m ρ c main_v31 (by decide)).trans (at5_main_v31 m ρ c)

theorem at6_main_arg2 : W6 m ρ c (Proc.devRef .tc main_arg2) = (m ((c.tc : Thread nD τ).loc main_arg2)) :=
  (W6_of_ne m ρ c main_arg2 (by decide)).trans (at5_main_arg2 m ρ c)

theorem at6_main_arg6 : W6 m ρ c (Proc.devRef .tc main_arg6) = (m ((c.tc : Thread nD τ).loc main_arg6)) :=
  (W6_of_ne m ρ c main_arg6 (by decide)).trans (at5_main_arg6 m ρ c)

theorem at6_main_arg7 : W6 m ρ c (Proc.devRef .tc main_arg7) = (m ((c.tc : Thread nD τ).loc main_arg7)) :=
  (W6_of_ne m ρ c main_arg7 (by decide)).trans (at5_main_arg7 m ρ c)

theorem at6_main_arg8 : W6 m ρ c (Proc.devRef .tc main_arg8) = (m ((c.tc : Thread nD τ).loc main_arg8)) :=
  (W6_of_ne m ρ c main_arg8 (by decide)).trans (at5_main_arg8 m ρ c)

/-! ## When the third region is entered: the second aggregation, the second bias as a row -/

theorem at7_main_v60 : W7 m ρ c (Proc.devRef .tc main_v60) = (Cert.Gcn.agg2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) :=
  Hosts.mid2_agg (W6 m ρ c) _ _ _ _ (at6_main_v3 m ρ c) (at6_main_v6 m ρ c) (at6_main_v31 m ρ c) (at6_main_v47 m ρ c)

theorem at7_main_v61 : W7 m ρ c (Proc.devRef .tc main_v61) = (Cert.Gcn.rowOf64 (F := Ideal) (m ((c.tc : Thread nD τ).loc main_arg6))) :=
  (Hosts.mid2_bias (W6 m ρ c) _ (at6_main_arg6 m ρ c)).trans (Cert.Gcn.cast_eq_rowOf64 _ _)

theorem at7_main_arg2 : W7 m ρ c (Proc.devRef .tc main_arg2) = (m ((c.tc : Thread nD τ).loc main_arg2)) :=
  (Hosts.mid2_keep_main_arg2 (W6 m ρ c)).trans (at6_main_arg2 m ρ c)

theorem at7_main_arg7 : W7 m ρ c (Proc.devRef .tc main_arg7) = (m ((c.tc : Thread nD τ).loc main_arg7)) :=
  (Hosts.mid2_keep_main_arg7 (W6 m ρ c)).trans (at6_main_arg7 m ρ c)

theorem at7_main_arg8 : W7 m ρ c (Proc.devRef .tc main_arg8) = (m ((c.tc : Thread nD τ).loc main_arg8)) :=
  (Hosts.mid2_keep_main_arg8 (W6 m ρ c)).trans (at6_main_arg8 m ρ c)

/-! ## When the third region is left: the second layer's features -/

theorem at8_main_v62 : W8 m ρ c (Proc.devRef .tc main_v62) = (Cert.Gcn.rectify (F := Ideal) (Cert.Gcn.biased (F := Ideal) (Cert.Gcn.agg2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (Cert.Gcn.rowOf64 (F := Ideal) (m ((c.tc : Thread nD τ).loc main_arg6))))) :=
  (W8_arr m ρ c 2).trans (Region2.value (V7 m ρ) c _ _ (at7_main_v60 m ρ c) (at7_main_v61 m ρ c))

theorem at8_main_arg2 : W8 m ρ c (Proc.devRef .tc main_arg2) = (m ((c.tc : Thread nD τ).loc main_arg2)) :=
  (W8_of_ne m ρ c main_arg2 (by decide)).trans (at7_main_arg2 m ρ c)

theorem at8_main_arg7 : W8 m ρ c (Proc.devRef .tc main_arg7) = (m ((c.tc : Thread nD τ).loc main_arg7)) :=
  (W8_of_ne m ρ c main_arg7 (by decide)).trans (at7_main_arg7 m ρ c)

theorem at8_main_arg8 : W8 m ρ c (Proc.devRef .tc main_arg8) = (m ((c.tc : Thread nD τ).loc main_arg8)) :=
  (W8_of_ne m ρ c main_arg8 (by decide)).trans (at7_main_arg8 m ρ c)

/-! ## When the fourth region is entered: the pooled features, the head's bias as a row -/

theorem at9_main_v74 : W9 m ρ c (Proc.devRef .tc main_v74) = (Cert.Gcn.pooled (F := Ideal) (m ((c.tc : Thread nD τ).loc main_arg2)) (Cert.Gcn.rectify (F := Ideal) (Cert.Gcn.biased (F := Ideal) (Cert.Gcn.agg2 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (Cert.Gcn.rowOf64 (F := Ideal) (m ((c.tc : Thread nD τ).loc main_arg6)))))) :=
  Hosts.mid3_pool (W8 m ρ c) _ _ (at8_main_arg2 m ρ c) (at8_main_v62 m ρ c)

theorem at9_main_v75 : W9 m ρ c (Proc.devRef .tc main_v75) = (Cert.Gcn.rowOf2 (F := Ideal) (m ((c.tc : Thread nD τ).loc main_arg8))) :=
  (Hosts.mid3_bias (W8 m ρ c) _ (at8_main_arg8 m ρ c)).trans (Cert.Gcn.cast_eq_rowOf2 _ _)

theorem at9_main_arg7 : W9 m ρ c (Proc.devRef .tc main_arg7) = (m ((c.tc : Thread nD τ).loc main_arg7)) :=
  (Hosts.mid3_keep_main_arg7 (W8 m ρ c)).trans (at8_main_arg7 m ρ c)

/-! ## When the fourth region is left: the result -/

/-- The result buffer at the last boundary holds the network of the argument arrays as launched. -/
theorem result : W10 m ρ c (Proc.devRef .tc main_v76) = (Cert.Gcn.net (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) :=
  (W10_arr m ρ c 3).trans (Region3.value (V9 m ρ) c _ _ _ (at9_main_v74 m ρ c) (at9_main_arg7 m ρ c) (at9_main_v75 m ρ c))

end Cert.KernelIdeal.Chain

end
-- ==== Proof.lean ====
/-
  A two-layer graph convolution, mean-pooled and followed by a linear head: the Pallas program against its jnp reference.

  Both programs compute the same network (Proof/Gcn.lean):
      out = mean-pool( relu( aggregate( relu( aggregate(x W1) + b1 ) W2 ) + b2 ) ) Wfc + bfc,
  where aggregate adds h(src j, :) * dinv(src j) * dinv(dst j) over the messages j arriving at a node (the edges and one
  self loop per node) and dinv is the inverse square root of the in-degree. They differ only in where the dense parts run:
  the kernel program computes x W1, relu(. + b1) W2, relu(. + b2) and the head in four pipelined regions, the first three
  over five blocks of 20000 node rows, and leaves the gathers, scatters and the pool to the same host operations the
  reference uses; and it computes the message weights once where the reference computes them once per layer.

  Over the extended reals with exact operations a product into a zero accumulator is the same sum as the host's
  dot_general, a row of a product depends on that row of the left factor only, and a narrowing of the float format is no
  change; so each region leaves the reference's dense stage of the arrays it finds (Proof/Region0.lean … Region3.lean),
  the host stretches between them are the reference's own operations (Proof/Hosts.lean), and the result buffer ends at
  the network of the arguments (Proof/Chain.lean). The reference's result is the same network (Proof/RefNet.lean). No
  algebraic law beyond reindexing a finite sum is used, so the finiteness of the inputs is never needed.

  The three frame claims are the generated frames (the reference's is its run with the result forgotten); the claim that
  the idealized kernel is the word-level kernel's idealization is stated as `True` (its list of rewrites is empty).
-/
import proofs.«134191_j78786880077968_1_alg».proof.Defs
import proofs.«134191_j78786880077968_1_alg».proof.Proof.Gen.Kernel
import proofs.«134191_j78786880077968_1_alg».proof.Proof.Gen.Kernel.Frame
import proofs.«134191_j78786880077968_1_alg».proof.Proof.Gen.KernelIdeal
import proofs.«134191_j78786880077968_1_alg».proof.Proof.Gen.KernelIdeal.Frame
import proofs.«134191_j78786880077968_1_alg».proof.Proof.Gen.ReferenceIdeal
import proofs.«134191_j78786880077968_1_alg».proof.Proof.Gen.Pre_finite_inputs
import proofs.«134191_j78786880077968_1_alg».proof.Proof.RunRef
import proofs.«134191_j78786880077968_1_alg».proof.Proof.RefNet
import proofs.«134191_j78786880077968_1_alg».proof.Proof.KernelRun
import proofs.«134191_j78786880077968_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The idealized reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The claim is stated as `True`: the list of rewrites between the two kernel programs is empty. -/
theorem preserves : Cert.preserves_Kernel_KernelIdeal := trivial

/-- From memories that agree on the arguments both idealized programs end with the network of the arguments in their
    result arrays. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefNet.res_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
